-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S64x4094 .f32
  ∧ IdealRules.sign_bit.Statement Cert.KernelIdeal.S64x4094 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1 : Shape := ⟨2, ![4096, 1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : IVec S4096x1 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096x1 : Shape := ⟨2, ![4096, 1]⟩
abbrev S4096 : Shape := ⟨1, ![4096]⟩
abbrev S512x4096 : Shape := ⟨2, ![512, 4096]⟩
abbrev S1x1 : Shape := ⟨2, ![1, 1]⟩
abbrev S64x512 : Shape := ⟨2, ![64, 512]⟩
abbrev S64 : Shape := ⟨1, ![64]⟩
abbrev S64x1 : Shape := ⟨2, ![64, 1]⟩
abbrev S1x4096 : Shape := ⟨2, ![1, 4096]⟩
abbrev S64x4096 : Shape := ⟨2, ![64, 4096]⟩
abbrev S64x4094 : Shape := ⟨2, ![64, 4094]⟩
abbrev S1 : Shape := ⟨1, ![1]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1, .i32⟩
  | .hbm, ⟨3, _⟩ => ⟨S4096x512, .f32⟩
  | .hbm, ⟨4, _⟩ => ⟨S4096x512, .f32⟩
  | .hbm, ⟨5, _⟩ => ⟨S512x4096, .f32⟩
  | .hbm, ⟨6, _⟩ => ⟨S512x4096, .f32⟩
  | .hbm, ⟨7, _⟩ => ⟨S1x1, .f32⟩
  | .hbm, ⟨8, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S64x512, .f32⟩
  | .local _ .vmem, ⟨5, _⟩ => ⟨S64x512, .f32⟩
  | .local _ .vmem, ⟨6, _⟩ => ⟨S512x4096, .f32⟩
  | .local _ .vmem, ⟨7, _⟩ => ⟨S64x512, .f32⟩
  | .local _ .vmem, ⟨8, _⟩ => ⟨S64x512, .f32⟩
  | .local _ .vmem, ⟨9, _⟩ => ⟨S512x4096, .f32⟩
  | .local _ .vmem, ⟨10, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg4_0 : Ref sig .tc := ⟨.vmem, 10, rfl⟩
abbrev cc0_sem0_0 : DmaSem sig := 0
abbrev cc0_sem1_0 : DmaSem sig := 1
abbrev cc1_sem0_0 : DmaSem sig := 2
abbrev cc1_sem1_0 : DmaSem sig := 3
abbrev cc2_sem0_0 : DmaSem sig := 4
abbrev cc2_sem0_1 : DmaSem sig := 5
abbrev cc2_sem1_0 : DmaSem sig := 6
abbrev cc2_sem2_0 : DmaSem sig := 7
abbrev cc2_sem2_1 : DmaSem sig := 8
abbrev cc2_sem3_0 : DmaSem sig := 9
abbrev cc2_sem4_0 : DmaSem sig := 10

abbrev nD : Nat := 1
abbrev τ : Topo := Topo.v7x

variable {F : FTy → Type} [BitOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  broadcasts_S4096x1_S4096x512 : S4096x1.Broadcasts S4096x512
  transposes_S4096x512_S512x4096_1_0 : S4096x512.Transposes [1, 0] S512x4096
  inb_S1x1_S1x1_0_0 : ∀ a, (![0, 0] : Fin 2 → Nat) a + S1x1.size a ≤ S1x1.size a
  h_S1x1 : 0 < S1x1.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S64x512_S64 : S64x512.Reduces [1] S64
  shapeCasts_S64_S64x1 : S64.ShapeCasts S64x1
  reduces_S512x4096_S4096 : S512x4096.Reduces [0] S4096
  shapeCasts_S4096_S1x4096 : S4096.ShapeCasts S1x4096
  broadcasts_S64x1_S64x4096 : S64x1.Broadcasts S64x4096
  broadcasts_S1x4096_S64x4096 : S1x4096.Broadcasts S64x4096
  slices_S64x4096_o0_0_S64x4094 : S64x4096.Slices ![0, 0] S64x4094
  slices_S64x4096_o0_1_S64x4094 : S64x4096.Slices ![0, 1] S64x4094
  iota_S64x1_d0_w32 : S64x1.Iotas .tc 32 [0]
  natLt_1_32 : 1 < 32
  broadcasts_S64x1_S64x4094 : S64x1.Broadcasts S64x4094
  reduces_S64x4094_S64 : S64x4094.Reduces [1] S64
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  dot_S64x512_S512x4096_S64x4096_1_0_0_1_n_n_wf : DotDims.WF S64x512 S512x4096 S64x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x512.size a
  hwx1_0 : ∀ i : grid1.Coords, EltTy.bits .f32 = 32 ∨ (Rect.block (s := S4096x512) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .f32 = 32 ∨ (Rect.block (s := S4096x512) S4096x512.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S4096x512.size a
  hwx2_0 : ∀ i : grid2.Coords, EltTy.bits .f32 = 32 ∨ (Rect.block (s := S4096x512) S64x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S512x4096.size a
  hwx2_1 : ∀ i : grid2.Coords, EltTy.bits .f32 = 32 ∨ (Rect.block (s := S512x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x512.size a ≤ S4096x512.size a
  hwx2_2 : ∀ i : grid2.Coords, EltTy.bits .f32 = 32 ∨ (Rect.block (s := S4096x512) S64x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x4096.size a ≤ S512x4096.size a
  hwx2_3 : ∀ i : grid2.Coords, EltTy.bits .f32 = 32 ∨ (Rect.block (s := S512x4096) S512x4096.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S4096x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x512.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S64x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S512x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x1 : Shape := ⟨2, ![4096, 1]⟩
abbrev S_ : Shape := ⟨0, ![]⟩
abbrev S4096 : Shape := ⟨1, ![4096]⟩
abbrev S512x4096 : Shape := ⟨2, ![512, 4096]⟩
abbrev S4096x4096 : Shape := ⟨2, ![4096, 4096]⟩
abbrev S1x4096 : Shape := ⟨2, ![1, 4096]⟩
abbrev S4095x4094 : Shape := ⟨2, ![4095, 4094]⟩

abbrev nBuf : Space → Nat
  | .hbm => 112
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S512x4096, .f32⟩
  | .hbm, ⟨30, _⟩ => ⟨S4096x4096, .f32⟩
  | .hbm, ⟨31, _⟩ => ⟨S4096x1, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x512, .f32⟩
  | .hbm, ⟨61, _⟩ => ⟨S_, .f32⟩
  | .hbm, ⟨62, _⟩ => ⟨S4096, .f32⟩
  | .hbm, ⟨63, _⟩ => ⟨S4096x512, .f32⟩
  | .hbm, ⟨64, _⟩ => ⟨S_, .f32⟩
  | .hbm, ⟨65, _⟩ => ⟨S4096, .f32⟩
  | .hbm, ⟨66, _⟩ => ⟨S512x4096, .f32⟩
  | .hbm, ⟨67, _⟩ => ⟨S4096x4096, .f32⟩
  | .hbm, ⟨68, _⟩ => ⟨S4096x1, .f32⟩
  | .hbm, ⟨69, _⟩ => ⟨S1x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S1x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S4095x4094, .f32⟩
  | .hbm, ⟨98, _⟩ => ⟨S4095x4094, .f32⟩
  | .hbm, ⟨99, _⟩ => ⟨S4095x4094, .f32⟩
  | .hbm, ⟨100, _⟩ => ⟨S4095x4094, .f32⟩
  | .hbm, ⟨101, _⟩ => ⟨S4095x4094, .f32⟩
  | .hbm, ⟨102, _⟩ => ⟨S4095x4094, .f32⟩
  | .hbm, ⟨103, _⟩ => ⟨S4095x4094, .f32⟩
  | .hbm, ⟨104, _⟩ => ⟨S4095x4094, .f32⟩
  | .hbm, ⟨105, _⟩ => ⟨S4095x4094, .f32⟩
  | .hbm, ⟨106, _⟩ => ⟨S4095x4094, .f32⟩
  | .hbm, ⟨107, _⟩ => ⟨S4095x4094, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩
abbrev main_cst_15 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_16 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_cst_18 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_19 : Ref sig .tc := ⟨.hbm, 108, rfl⟩
abbrev main_v85 : Ref sig .tc := ⟨.hbm, 109, rfl⟩
abbrev main_cst_20 : Ref sig .tc := ⟨.hbm, 110, rfl⟩
abbrev main_v86 : Ref sig .tc := ⟨.hbm, 111, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4096x4096_S4095x4094_0_0 : S4096x4096.Slices ![0, 0] S4095x4094
  slices_S4096x4096_S4095x4094_0_1 : S4096x4096.Slices ![0, 1] S4095x4094
  reducesTo_S4095x4094_S_d0_1 : S4095x4094.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KAcc.lean ====
/-
  The loss region's accumulator, read as a value. Its one output block never moves: the first point stores the zero
  block and then adds its own total, every later point adds its total to what the point before left, and the last
  point divides by the count after adding. So after point n the block holds the n-fold application of one step
  function, started from the zero block; the only write-back, at the last point, writes the divided value, and
  the [1,1] result array IS that block.
-/
import proofs.«148306_j14998025798302_1_alg».proof.Proof.Gen.KernelIdeal.Frame
import Idealize.ShloMosaic.Lib.Pipeline.Value
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One point's step: from the point's coordinate, its four input blocks (a row block and the full transposed
    matrix, for each of the two feature sets) and the accumulator's contents, the contents after the accumulating
    store — the old contents plus the point's masked total. -/
def step (i : grid2.Coords) (x0 : Vec F S64x512 .f32) (x1 : Vec F S512x4096 .f32) (x2 : Vec F S64x512 .f32)
    (x3 : Vec F S512x4096 .f32) (acc : Vec F S1x1 .f32) : Vec F S1x1 .f32 :=
  k2_pay1 (BitVec.ofNat 32 (i 0).val) (k2_pay8 (k2_pay4 x2) (k2_pay5 x3)) (k2_pay9 (k2_pay4 x2) (k2_pay5 x3))
    (k2_pay10 (k2_pay6 x0 x1)) (k2_pay11 (k2_pay4 x2) (k2_pay5 x3)) (k2_pay12 (k2_pay4 x2) (k2_pay5 x3))
    (k2_pay13 (k2_pay4 x2) (k2_pay5 x3)) (FloatOps.ofBits .f32 0#32) acc

/-- A middle point leaves the step of the old contents. -/
theorem out_B (c : Dev nD) (i : grid2.Coords) (a1 : Memref sig .tc .vmem S64x512 .f32) (h1 : a1.IsWhole)
    (a2 : Memref sig .tc .vmem S512x4096 .f32) (h2 : a2.IsWhole) (a3 : Memref sig .tc .vmem S64x512 .f32) (h3 : a3.IsWhole)
    (a4 : Memref sig .tc .vmem S512x4096 .f32) (h4 : a4.IsWhole) (a5 : Memref sig .tc .vmem S1x1 .f32) (h5 : a5.IsWhole)
    (hc0 : ¬cond2_0 i) (hc1 : ¬cond2_1 i)
    (x0 : Vec F S64x512 .f32) (x1 : Vec F S512x4096 .f32) (x2 : Vec F S64x512 .f32) (x3 : Vec F S512x4096 .f32) (xo : Vec F S1x1 .f32) :
    out2_B_4 c i a1 h1 a2 h2 a3 h3 a4 h4 a5 h5 hc0 hc1 x0 x1 x2 x3 xo = step i x0 x1 x2 x3 xo := by
  unfold out2_B_4
  rw [View.read_writes_eq_canon _ _ _ (cover2_B_4 c i a1 h1 a2 h2 a3 h3 a4 h4 a5 h5 hc0 hc1 x0 x1 x2 x3 xo)]
  unfold kernelRun2_B
  dsimp only
  sl_unfold_words
  rw [View.canon_unit_zero hz]
  simp only [View.readAt_eq_ld, h1.read_unread, h2.read_unread, h3.read_unread, h4.read_unread, h5.read_unread,
    View.ld_unit_zero (S := S64x512) hz, View.ld_unit_zero (S := S512x4096) hz, View.ld_unit_zero (S := S1x1) hz]
  rfl

/-- The first point stores the zero block, reads it back, and leaves its step. -/
theorem out_A (c : Dev nD) (i : grid2.Coords) (a1 : Memref sig .tc .vmem S64x512 .f32) (h1 : a1.IsWhole)
    (a2 : Memref sig .tc .vmem S512x4096 .f32) (h2 : a2.IsWhole) (a3 : Memref sig .tc .vmem S64x512 .f32) (h3 : a3.IsWhole)
    (a4 : Memref sig .tc .vmem S512x4096 .f32) (h4 : a4.IsWhole) (a5 : Memref sig .tc .vmem S1x1 .f32) (h5 : a5.IsWhole)
    (hc0 : cond2_0 i) (hc1 : ¬cond2_1 i)
    (x0 : Vec F S64x512 .f32) (x1 : Vec F S512x4096 .f32) (x2 : Vec F S64x512 .f32) (x3 : Vec F S512x4096 .f32) :
    out2_A_4 c i a1 h1 a2 h2 a3 h3 a4 h4 a5 h5 hc0 hc1 x0 x1 x2 x3 = step i x0 x1 x2 x3 k2_pay3 := by
  unfold out2_A_4
  rw [View.read_writes_eq_canon _ _ _ (cover2_A_4 c i a1 h1 a2 h2 a3 h3 a4 h4 a5 h5 hc0 hc1 x0 x1 x2 x3)]
  unfold kernelRun2_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S64x512) hz, View.ld_unit_zero (S := S512x4096) hz, View.ld_unit_zero (S := S1x1) hz]
  rfl

/-- The last point takes its step, reads the result back, and leaves it divided by the count. -/
theorem out_C (c : Dev nD) (i : grid2.Coords) (a1 : Memref sig .tc .vmem S64x512 .f32) (h1 : a1.IsWhole)
    (a2 : Memref sig .tc .vmem S512x4096 .f32) (h2 : a2.IsWhole) (a3 : Memref sig .tc .vmem S64x512 .f32) (h3 : a3.IsWhole)
    (a4 : Memref sig .tc .vmem S512x4096 .f32) (h4 : a4.IsWhole) (a5 : Memref sig .tc .vmem S1x1 .f32) (h5 : a5.IsWhole)
    (hc0 : ¬cond2_0 i) (hc1 : cond2_1 i)
    (x0 : Vec F S64x512 .f32) (x1 : Vec F S512x4096 .f32) (x2 : Vec F S64x512 .f32) (x3 : Vec F S512x4096 .f32) (xo : Vec F S1x1 .f32) :
    out2_C_4 c i a1 h1 a2 h2 a3 h3 a4 h4 a5 h5 hc0 hc1 x0 x1 x2 x3 xo = k2_pay2 (step i x0 x1 x2 x3 xo) := by
  unfold out2_C_4
  rw [View.read_writes_eq_canon _ _ _ (cover2_C_4 c i a1 h1 a2 h2 a3 h3 a4 h4 a5 h5 hc0 hc1 x0 x1 x2 x3 xo)]
  unfold kernelRun2_C
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S64x512) hz, View.ld_unit_zero (S := S512x4096) hz, View.ld_unit_zero (S := S1x1) hz]
  rfl

/-- The accumulator after point n, before any division: the step applied point by point from the zero block. -/
def accAfter (c : Dev nD) : (n : ℕ) → n < cfg2.N → Vec F S1x1 .f32
  | 0, h => step (grid2.coords ⟨0, h⟩) (iblk2 V c 0 ⟨0, h⟩) (iblk2 V c 1 ⟨0, h⟩) (iblk2 V c 2 ⟨0, h⟩) (iblk2 V c 3 ⟨0, h⟩) k2_pay3
  | n + 1, h => step (grid2.coords ⟨n + 1, h⟩) (iblk2 V c 0 ⟨n + 1, h⟩) (iblk2 V c 1 ⟨n + 1, h⟩) (iblk2 V c 2 ⟨n + 1, h⟩)
      (iblk2 V c 3 ⟨n + 1, h⟩) (accAfter c n (Nat.lt_of_succ_lt h))

/-- Before the last point the output's staging buffer holds the undivided accumulator: by induction on the point. -/
theorem outsAt_lt (c : Dev nD) : ∀ (n : ℕ) (h : n < cfg2.N), n < 63 → outsAt2 V c n h = accAfter V c n h
  | 0, h, _ => (outsAt2_A V c ⟨0, h⟩ rfl (show ¬(0 : ℕ) % 64 = 63 by decide)).trans (out_A ..)
  | n + 1, h, hn => by
    have hB0 : ¬(⟨n + 1, h⟩ : Fin cfg2.N).val % 64 = 0 := by dsimp only; omega
    have hB1 : ¬(⟨n + 1, h⟩ : Fin cfg2.N).val % 64 = 63 := by dsimp only; omega
    rw [outsAt2_B V c ⟨n + 1, h⟩ hB0 hB1, out_B]
    show step _ _ _ _ _ (outsAt2 V c n _) = step _ _ _ _ _ (accAfter V c n _)
    rw [outsAt_lt c n _ (by omega)]

/-- The last point. -/
abbrev tLast : Fin cfg2.N := ⟨63, by rw [show cfg2.N = 64 from N_2]; decide⟩

/-- What the region leaves in its result block: the accumulator after the last point, divided by the count. -/
def result (c : Dev nD) : Vec F S1x1 .f32 := k2_pay2 (accAfter V c 63 tLast.isLt)

/-- The staging contents after a point depend on the point's number only. -/
theorem outsAt2_congr (c : Dev nD) (a b : ℕ) (ha : a < cfg2.N) (hb : b < cfg2.N) (e : a = b) :
    outsAt2 V c a ha = outsAt2 V c b hb := by subst e; rfl

theorem outsAt_last (c : Dev nD) : outsAt2 V c 63 tLast.isLt = result V c := by
  have h0 : ¬(tLast : Fin cfg2.N).val % 64 = 0 := by decide
  have h1 : (tLast : Fin cfg2.N).val % 64 = 63 := by decide
  have h62 : 62 < cfg2.N := by rw [show cfg2.N = 64 from N_2]; decide
  have e := outsAt2_C V c tLast h0 h1
  rw [out_C, outsAt2_congr V c ((tLast : Fin cfg2.N).val - 1) 62 _ h62 rfl, outsAt_lt V c 62 h62 (by decide)] at e
  exact e

end Cert.KernelIdeal.Acc

end
-- ==== Proof.KHost.lean ====
/-
  What each region finds and leaves, as arrays.

  The two normalization regions have ONE grid point whose block is the whole array, so each leaves its body's
  value of the whole argument. The loss region reads, at point t, rows 64 t .. 64 t + 63 of each normalized matrix
  and the whole of each transposed one, and its result block — written back once, after the last point — is the
  whole [1,1] result array. Between the regions the host transposes the two normalized matrices, and after the last
  one it recasts the [1,1] total as a scalar. Followed boundary by boundary, this names every array the loss region
  reads, and the program's result, as functions of the launch memory.
-/
import proofs.«148306_j14998025798302_1_alg».proof.Proof.Gen.KernelIdeal.Frame
import proofs.«148306_j14998025798302_1_alg».proof.Proof.KAcc
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

section Regions
variable (V : (c : Dev nD) → (b : Ref sig .tc) → Buf (Elt F) ((c : Thread nD τ).loc b))

theorem hz : (![0, 0] : Fin 2 → Nat) = fun _ => 0 := funext fun a => by fin_cases a <;> rfl

/-! ## The first normalization region -/

theorem idx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The one point's input block is the whole argument array. -/
theorem iblk0_eq (c : Dev nD) (t : Fin cfg0.N) : (iblk0 V c 0 t : Vec F S4096x512 .f32) = V c main_arg0 := by
  obtain ⟨e0, e1, -, -⟩ := idx0 t
  have hz' : (fun a => win0_0.index t a * main_arg0.ty.shape.size a) = fun _ => 0 := funext fun a => by
    match a with
    | ⟨0, _⟩ => show win0_0.index t (0 : Fin 2) * 4096 = 0; rw [e0]
    | ⟨1, _⟩ => show win0_0.index t (1 : Fin 2) * 512 = 0; rw [e1]
  exact Memref.read_access_unit_zero (Elt F) main_arg0 hz' (fun a => by rw [congrFun hz' a]; simp) (V c main_arg0)

/-- What the one point writes back: the body's value of the whole argument, read through the whole block. -/
theorem flushed0 (c : Dev nD) (t : Fin cfg0.N) :
    (dat0 V c).flushed 1 t = ((cfg0.win 1).blk t).view.read (Elt F) (k0_pay1 (V c main_arg0)) := by
  obtain ⟨-, -, e2, e3⟩ := idx0 t
  show (cfg0.win 1).cut (grid0.coords t) ((dat0 V c).after 1 t) = _
  rw [after0_1, iblk0_eq]
  unfold out0_1
  rw [View.canon_unit_zero hz]
  simp only [View.ld_unit_zero (S := S4096x512) hz]
  have hz' : (fun a => win0_1.index t a * main_v0.ty.shape.size a) = fun _ => 0 := funext fun a => by
    match a with
    | ⟨0, _⟩ => show win0_1.index t (0 : Fin 2) * 4096 = 0; rw [e2]
    | ⟨1, _⟩ => show win0_1.index t (1 : Fin 2) * 512 = 0; rw [e3]
  exact (Memref.read_access_unit_zero (Elt F) main_v0 hz' (fun a => by rw [congrFun hz' a]; simp) _).symm

/-- The region leaves the body's value of the whole argument in its result array. -/
theorem final0 (c : Dev nD) : (dat0 V c).arrAt 1 cfg0.N = k0_pay1 (V c main_arg0) :=
  (dat0 V c).arrAt_eq_of_cover 1 (k0_pay1 (V c main_arg0)) (fun t _ => flushed0 V c t) fun i =>
    ⟨t0_0, flush0_1 t0_0, by
      show i ∈ ((View.whole main_v0).slice (win0_1.rect t0_0)).set
      rw [View.set_slice_whole, Rect.mem_set_unit]
      obtain ⟨-, -, e2, e3⟩ := idx0 t0_0
      intro a
      have h0 : (i 0 : Nat) < 4096 := (i 0).isLt
      have h1 : (i 1 : Nat) < 512 := (i 1).isLt
      match a with
      | ⟨0, _⟩ =>
        show win0_1.index t0_0 (0 : Fin 2) * win0_1.size 0 ≤ (i 0 : Nat) ∧ (i 0 : Nat) < win0_1.index t0_0 (0 : Fin 2) * win0_1.size 0 + win0_1.xsize (grid0.coords t0_0) 0
        rw [e2, show win0_1.xsize (grid0.coords t0_0) 0 = 4096 from by decide +kernel]; omega
      | ⟨1, _⟩ =>
        show win0_1.index t0_0 (1 : Fin 2) * win0_1.size 1 ≤ (i 1 : Nat) ∧ (i 1 : Nat) < win0_1.index t0_0 (1 : Fin 2) * win0_1.size 1 + win0_1.xsize (grid0.coords t0_0) 1
        rw [e3, show win0_1.xsize (grid0.coords t0_0) 1 = 512 from by decide +kernel]; omega⟩

/-! ## The second normalization region -/

theorem idx1 : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

theorem iblk1_eq (c : Dev nD) (t : Fin cfg1.N) : (iblk1 V c 0 t : Vec F S4096x512 .f32) = V c main_arg1 := by
  obtain ⟨e0, e1, -, -⟩ := idx1 t
  have hz' : (fun a => win1_0.index t a * main_arg1.ty.shape.size a) = fun _ => 0 := funext fun a => by
    match a with
    | ⟨0, _⟩ => show win1_0.index t (0 : Fin 2) * 4096 = 0; rw [e0]
    | ⟨1, _⟩ => show win1_0.index t (1 : Fin 2) * 512 = 0; rw [e1]
  exact Memref.read_access_unit_zero (Elt F) main_arg1 hz' (fun a => by rw [congrFun hz' a]; simp) (V c main_arg1)

theorem flushed1 (c : Dev nD) (t : Fin cfg1.N) :
    (dat1 V c).flushed 1 t = ((cfg1.win 1).blk t).view.read (Elt F) (k1_pay1 (V c main_arg1)) := by
  obtain ⟨-, -, e2, e3⟩ := idx1 t
  show (cfg1.win 1).cut (grid1.coords t) ((dat1 V c).after 1 t) = _
  rw [after1_1, iblk1_eq]
  unfold out1_1
  rw [View.canon_unit_zero hz]
  simp only [View.ld_unit_zero (S := S4096x512) hz]
  have hz' : (fun a => win1_1.index t a * main_v1.ty.shape.size a) = fun _ => 0 := funext fun a => by
    match a with
    | ⟨0, _⟩ => show win1_1.index t (0 : Fin 2) * 4096 = 0; rw [e2]
    | ⟨1, _⟩ => show win1_1.index t (1 : Fin 2) * 512 = 0; rw [e3]
  exact (Memref.read_access_unit_zero (Elt F) main_v1 hz' (fun a => by rw [congrFun hz' a]; simp) _).symm

theorem final1 (c : Dev nD) : (dat1 V c).arrAt 1 cfg1.N = k1_pay1 (V c main_arg1) :=
  (dat1 V c).arrAt_eq_of_cover 1 (k1_pay1 (V c main_arg1)) (fun t _ => flushed1 V c t) fun i =>
    ⟨t1_0, flush1_1 t1_0, by
      show i ∈ ((View.whole main_v1).slice (win1_1.rect t1_0)).set
      rw [View.set_slice_whole, Rect.mem_set_unit]
      obtain ⟨-, -, e2, e3⟩ := idx1 t1_0
      intro a
      have h0 : (i 0 : Nat) < 4096 := (i 0).isLt
      have h1 : (i 1 : Nat) < 512 := (i 1).isLt
      match a with
      | ⟨0, _⟩ =>
        show win1_1.index t1_0 (0 : Fin 2) * win1_1.size 0 ≤ (i 0 : Nat) ∧ (i 0 : Nat) < win1_1.index t1_0 (0 : Fin 2) * win1_1.size 0 + win1_1.xsize (grid1.coords t1_0) 0
        rw [e2, show win1_1.xsize (grid1.coords t1_0) 0 = 4096 from by decide +kernel]; omega
      | ⟨1, _⟩ =>
        show win1_1.index t1_0 (1 : Fin 2) * win1_1.size 1 ≤ (i 1 : Nat) ∧ (i 1 : Nat) < win1_1.index t1_0 (1 : Fin 2) * win1_1.size 1 + win1_1.xsize (grid1.coords t1_0) 1
        rw [e3, show win1_1.xsize (grid1.coords t1_0) 1 = 512 from by decide +kernel]; omega⟩

/-! ## The loss region -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Point t's row block of the first normalized matrix: its row r is row 64 t + r. -/
theorem iblk2_0_apply (c : Dev nD) (t : Fin cfg2.N) (r : Fin 64) (k : Fin 512) (R : Fin 4096) (hR : R.val = 64 * t.val + r.val) :
    (iblk2 V c 0 t : Vec F S64x512 .f32) (ix2 r k) = V c main_v0 (ix2 R k) := by
  obtain ⟨e0, e1, -⟩ := idx2 t
  unfold iblk2
  rw [View.read_apply]
  show V c main_v0 _ = V c main_v0 _
  congr 1
  funext a
  apply Fin.ext
  match a with
  | ⟨0, _⟩ => show win2_0.index t (0 : Fin 2) * 64 + 1 * r.val = R.val; rw [e0, hR]; omega
  | ⟨1, _⟩ => show win2_0.index t (1 : Fin 2) * 512 + 1 * k.val = k.val; rw [e1]; omega

/-- The same for the second normalized matrix. -/
theorem iblk2_2_apply (c : Dev nD) (t : Fin cfg2.N) (r : Fin 64) (k : Fin 512) (R : Fin 4096) (hR : R.val = 64 * t.val + r.val) :
    (iblk2 V c 2 t : Vec F S64x512 .f32) (ix2 r k) = V c main_v1 (ix2 R k) := by
  obtain ⟨-, -, -, -, e0, e1, -⟩ := idx2 t
  unfold iblk2
  rw [View.read_apply]
  show V c main_v1 _ = V c main_v1 _
  congr 1
  funext a
  apply Fin.ext
  match a with
  | ⟨0, _⟩ => show win2_2.index t (0 : Fin 2) * 64 + 1 * r.val = R.val; rw [e0, hR]; omega
  | ⟨1, _⟩ => show win2_2.index t (1 : Fin 2) * 512 + 1 * k.val = k.val; rw [e1]; omega

/-- Every point reads the whole of each transposed matrix. -/
theorem iblk2_1_eq (c : Dev nD) (t : Fin cfg2.N) : (iblk2 V c 1 t : Vec F S512x4096 .f32) = V c main_v2 := by
  obtain ⟨-, -, e0, e1, -⟩ := idx2 t
  have hz' : (fun a => win2_1.index t a * main_v2.ty.shape.size a) = fun _ => 0 := funext fun a => by
    match a with
    | ⟨0, _⟩ => show win2_1.index t (0 : Fin 2) * 512 = 0; rw [e0]
    | ⟨1, _⟩ => show win2_1.index t (1 : Fin 2) * 4096 = 0; rw [e1]
  exact Memref.read_access_unit_zero (Elt F) main_v2 hz' (fun a => by rw [congrFun hz' a]; simp) (V c main_v2)

theorem iblk2_3_eq (c : Dev nD) (t : Fin cfg2.N) : (iblk2 V c 3 t : Vec F S512x4096 .f32) = V c main_v3 := by
  obtain ⟨-, -, -, -, -, -, e0, e1, -⟩ := idx2 t
  have hz' : (fun a => win2_3.index t a * main_v3.ty.shape.size a) = fun _ => 0 := funext fun a => by
    match a with
    | ⟨0, _⟩ => show win2_3.index t (0 : Fin 2) * 512 = 0; rw [e0]
    | ⟨1, _⟩ => show win2_3.index t (1 : Fin 2) * 4096 = 0; rw [e1]
  exact Memref.read_access_unit_zero (Elt F) main_v3 hz' (fun a => by rw [congrFun hz' a]; simp) (V c main_v3)

/-- The one write-back, after the last point, writes the divided accumulator: the block is the whole [1,1] array. -/
theorem flushed2 (c : Dev nD) (t : Fin cfg2.N) (hf : (cfg2.win 4).flush t = true) :
    (dat2 V c).flushed 4 t = ((cfg2.win 4).blk t).view.read (Elt F) (Acc.result V c) := by
  have hN : cfg2.N = 64 := N_2
  have h63 : t.val = 63 := by have := (flush2_4 t).mp hf; have := t.isLt; omega
  obtain rfl : t = Acc.tLast := Fin.ext h63
  obtain ⟨-, -, -, -, -, -, -, -, e0, e1⟩ := idx2 Acc.tLast
  show (cfg2.win 4).cut (grid2.coords Acc.tLast) ((dat2 V c).after 4 Acc.tLast) = _
  rw [after2_4]
  show (cfg2.win 4).cut (grid2.coords Acc.tLast) (outsAt2 V c 63 Acc.tLast.isLt) = _
  rw [Acc.outsAt_last]
  have hz' : (fun a => win2_4.index Acc.tLast a * main_v4.ty.shape.size a) = fun _ => 0 := funext fun a => by
    match a with
    | ⟨0, _⟩ => show win2_4.index Acc.tLast (0 : Fin 2) * 1 = 0; rw [e0]
    | ⟨1, _⟩ => show win2_4.index Acc.tLast (1 : Fin 2) * 1 = 0; rw [e1]
  exact (Memref.read_access_unit_zero (Elt F) main_v4 hz' (fun a => by rw [congrFun hz' a]; simp) (Acc.result V c)).symm

/-- The loss region leaves the divided accumulator in its result array. -/
theorem final2 (c : Dev nD) : (dat2 V c).arrAt 4 cfg2.N = Acc.result V c :=
  (dat2 V c).arrAt_eq_of_cover 4 (Acc.result V c) (flushed2 V c) fun i =>
    ⟨Acc.tLast, (flush2_4 Acc.tLast).mpr rfl, by
      show i ∈ ((View.whole main_v4).slice (win2_4.rect Acc.tLast)).set
      rw [View.set_slice_whole, Rect.mem_set_unit]
      obtain ⟨-, -, -, -, -, -, -, -, e0, e1⟩ := idx2 Acc.tLast
      intro a
      have h0 : (i 0 : Nat) < 1 := (i 0).isLt
      have h1 : (i 1 : Nat) < 1 := (i 1).isLt
      match a with
      | ⟨0, _⟩ =>
        show win2_4.index Acc.tLast (0 : Fin 2) * win2_4.size 0 ≤ (i 0 : Nat) ∧ (i 0 : Nat) < win2_4.index Acc.tLast (0 : Fin 2) * win2_4.size 0 + win2_4.xsize (grid2.coords Acc.tLast) 0
        rw [e0, show win2_4.xsize (grid2.coords Acc.tLast) 0 = 1 from by decide +kernel]; omega
      | ⟨1, _⟩ =>
        show win2_4.index Acc.tLast (1 : Fin 2) * win2_4.size 1 ≤ (i 1 : Nat) ∧ (i 1 : Nat) < win2_4.index Acc.tLast (1 : Fin 2) * win2_4.size 1 + win2_4.xsize (grid2.coords Acc.tLast) 1
        rw [e1, show win2_4.xsize (grid2.coords Acc.tLast) 1 = 1 from by decide +kernel]; omega⟩

end Regions

/-! ## The boundaries -/

variable (m : (ℓ : Loc nD τ sig) → Buf (Elt F) ℓ) (ρ : Dev nD → PrngReg)

/-- The first normalized matrix, as the host and the loss region find it. -/
theorem W2_v0 (c : Dev nD) : W2 m ρ c (Proc.devRef .tc main_v0) = k0_pay1 (m ((c : Thread nD τ).loc main_arg0)) :=
  calc W2 m ρ c (Proc.devRef .tc main_v0)
    _ = W1 m ρ c (Proc.devRef .tc main_v0) := W2_of_ne m ρ c main_v0 (by decide)
    _ = (dat0 (V0 m ρ) c).arrAt 1 cfg0.N := W1_arr m ρ c 1
    _ = k0_pay1 (V0 m ρ c main_arg0) := final0 (V0 m ρ) c
    _ = k0_pay1 (m ((c : Thread nD τ).loc main_arg0)) := rfl

/-- The second normalized matrix. -/
theorem W2_v1 (c : Dev nD) : W2 m ρ c (Proc.devRef .tc main_v1) = k1_pay1 (m ((c : Thread nD τ).loc main_arg1)) :=
  calc W2 m ρ c (Proc.devRef .tc main_v1)
    _ = (dat1 (V1 m ρ) c).arrAt 1 cfg1.N := W2_arr m ρ c 1
    _ = k1_pay1 (V1 m ρ c main_arg1) := final1 (V1 m ρ) c
    _ = k1_pay1 (W0 m ρ c (Proc.devRef .tc main_arg1)) := congrArg k1_pay1 (W1_of_ne m ρ c main_arg1 (by decide))
    _ = k1_pay1 (m ((c : Thread nD τ).loc main_arg1)) := rfl

end Cert.KernelIdeal.HostValue

end
-- ==== Proof.Spec.lean ====
/-
  The quantity both programs compute, written once over plain index types, and the one summation law that joins
  the two arrangements of its outer sum.

  Rows of a matrix x : [4096, 512] are first scaled to unit length, x r k / max (sqrt (sum_k x r k ^ 2)) eps.
  For two rows u, v the shifted distance is
    sqrt (max (((|u|^2 + |v|^2) - 2 <u, v>) + c2 * (sum u - sum v) + c3) 0),
  the expansion of |u - v + e|^2 with c2 = 2 e, c3 = 512 e^2 kept as the two float literals. From the two
  distance matrices dl, de one term is
    (sign (dl r c - dl r (c+1)) - sign (de r c - de r (c+1))) * (de r (c+1) - de r c),
  and the loss is the sum of the terms over rows r < 4095 and columns c < 4094, divided by the count literal.

  One program sums all rows at once. The other walks the 4096 rows in 64 blocks of 64, multiplies row r's terms by
  1 when r < 4095 and by 0 otherwise, adds each block's total to a running value started at the zero literal,
  and divides after the last block. Addition on the extended reals is commutative and associative, t * 1 = t and
  t * 0 = 0 for every extended real t, so the two agree with no finiteness assumption (masked_total,
  running_last).
-/
import Idealize.ShloMosaic.PureOps.Ideal.Laws
import Mathlib.Algebra.BigOperators.Fin
import Mathlib.Logic.Equiv.Fin.Basic

noncomputable section

namespace Cert.Ranking

open Idealize.ShloMosaic

/-- The float literals of the computation, as the extended reals their patterns denote. -/
abbrev epsN : EReal := Ideal.ofBits .f32 0x2B8CBCCC#32
abbrev two : EReal := Ideal.ofBits .f32 0x40000000#32
abbrev c2 : EReal := Ideal.ofBits .f32 0x360637BD#32
abbrev c3 : EReal := Ideal.ofBits .f32 0x300CBCCC#32
abbrev zero : EReal := Ideal.ofBits .f32 0x00000000#32
abbrev cnt : EReal := Ideal.ofBits .f32 0x4B7FD002#32

/-- Entry (r, k) of the matrix whose rows are x's rows scaled to unit length. -/
def nrm (x : Fin 4096 → Fin 512 → EReal) (r : Fin 4096) (k : Fin 512) : EReal :=
  Ideal.div (x r k) (max (Ideal.sqrt (∑ k' : Fin 512, x r k' * x r k')) epsN)

/-- The shifted distance between two rows. -/
def dist (u v : Fin 512 → EReal) : EReal :=
  Ideal.sqrt (max (((((∑ k : Fin 512, u k * u k) + (∑ k : Fin 512, v k * v k)) - two * (∑ k : Fin 512, u k * v k))
    + c2 * ((∑ k : Fin 512, u k) - (∑ k : Fin 512, v k))) + c3) zero)

/-- The distance matrix of a matrix's rows against themselves. -/
def dmat (y : Fin 4096 → Fin 512 → EReal) (r c : Fin 4096) : EReal := dist (y r) (y c)

/-- Column c and its right neighbour, among the 4096 columns. -/
def colL (c : Fin 4094) : Fin 4096 := ⟨c.val, by omega⟩
def colR (c : Fin 4094) : Fin 4096 := ⟨c.val + 1, by omega⟩

/-- One term of the loss. -/
def term (dl de : Fin 4096 → Fin 4096 → EReal) (r : Fin 4096) (c : Fin 4094) : EReal :=
  (Ideal.sign (dl r (colL c) - dl r (colR c)) - Ideal.sign (de r (colL c) - de r (colR c)))
    * (de r (colR c) - de r (colL c))

/-- The loss: all terms of rows below 4095, summed and divided by the count. -/
def loss (g : Fin 4096 → Fin 4094 → EReal) : EReal :=
  Ideal.div (∑ r : Fin 4095, ∑ c : Fin 4094, g r.castSucc c) cnt

/-! ## The blocked, masked arrangement -/

/-- Row r of block t. -/
def rowOf (t r : Fin 64) : Fin 4096 := ⟨64 * t.val + r.val, by omega⟩

/-- The row mask: one below row 4095, zero at it. -/
def maskv (r : Fin 4096) : EReal := if r.val < 4095 then 1 else 0

/-- Block t's total of masked terms. -/
def blockTotal (g : Fin 4096 → Fin 4094 → EReal) (t : Fin 64) : EReal :=
  ∑ r : Fin 64, ∑ c : Fin 4094, g (rowOf t r) c * maskv (rowOf t r)

/-- The running value after block n: started at the zero literal, one block total added per block. -/
def running (T : Fin 64 → EReal) : (n : ℕ) → n < 64 → EReal
  | 0, h => zero + T ⟨0, h⟩
  | n + 1, h => running T n (Nat.lt_of_succ_lt h) + T ⟨n + 1, h⟩

theorem running_eq (T : Fin 64 → EReal) : ∀ (n : ℕ) (h : n < 64),
    running T n h = ∑ t : Fin (n + 1), T ⟨t.val, lt_of_lt_of_le t.isLt h⟩
  | 0, h => by
    show Ideal.ofBits .f32 0x00000000#32 + T ⟨0, h⟩ = _
    rw [Ideal.ofBits_zero_f32, zero_add, Fin.sum_univ_one]; rfl
  | n + 1, h => by
    rw [running, running_eq T n, Fin.sum_univ_castSucc (n := n + 1)]; rfl

/-- After the last block the running value is the sum of all block totals. -/
theorem running_last (T : Fin 64 → EReal) : running T 63 (by decide) = ∑ t : Fin 64, T t :=
  running_eq T 63 (by decide)

/-- A sum over the 4096 rows, taken block by block. -/
theorem sum_rows {M : Type*} [AddCommMonoid M] (h : Fin 4096 → M) :
    ∑ t : Fin 64, ∑ r : Fin 64, h (rowOf t r) = ∑ i : Fin 4096, h i := by
  rw [← Fintype.sum_prod_type']
  refine Fintype.sum_equiv (finProdFinEquiv (m := 64) (n := 64)) _ _ fun p => congrArg h (Fin.ext ?_)
  show 64 * p.1.val + p.2.val = p.2.val + 64 * p.1.val
  omega

/-- The block totals add up to the unmasked sum over the rows below 4095. -/
theorem masked_total (g : Fin 4096 → Fin 4094 → EReal) :
    ∑ t : Fin 64, blockTotal g t = ∑ r : Fin 4095, ∑ c : Fin 4094, g r.castSucc c := by
  unfold blockTotal
  rw [sum_rows (fun i => ∑ c : Fin 4094, g i c * maskv i), Fin.sum_univ_castSucc (n := 4095)]
  have hlast : (∑ c : Fin 4094, g (Fin.last 4095) c * maskv (Fin.last 4095)) = 0 :=
    Finset.sum_eq_zero fun c _ => by
      rw [show maskv (Fin.last 4095) = 0 from if_neg (by simp [Fin.last])]; exact mul_zero _
  rw [hlast, add_zero]
  refine Finset.sum_congr rfl fun r _ => Finset.sum_congr rfl fun c _ => ?_
  rw [show maskv r.castSucc = 1 from if_pos (show (r.castSucc : Fin 4096).val < 4095 from r.isLt)]; exact mul_one _

/-- The blocked, masked arrangement computes the loss. -/
theorem blocked_eq_loss (g : Fin 4096 → Fin 4094 → EReal) :
    Ideal.div (running (blockTotal g) 63 (by decide)) cnt = loss g := by
  rw [running_last, masked_total]; rfl

end Cert.Ranking

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.KArith.lean ====
/-
  The kernel bodies' arithmetic, read at an entry on the extended reals.

  The normalization body divides each entry of a [4096, 512] block by the larger of its row's length and a small
  literal. The loss body forms, from a block of 64 rows u_r and the full transposed matrix whose columns are the rows
  v_c, the 64 x 4096 matrix of shifted distances: row sums of squares and of entries come from lane sums, column
  sums from sums over the first axis, and the inner products from a matrix product into a zero accumulator — each
  a plain finite sum here. Entry (r, c) is the shifted distance of row r of the block and column c of the transposed
  matrix.
-/
import proofs.«148306_j14998025798302_1_alg».proof.Proof.Gen.KernelIdeal.Skeleton
import proofs.«148306_j14998025798302_1_alg».proof.Proof.Spec
import proofs.«148306_j14998025798302_1_alg».proof.Proof.LibColumn
import proofs.«148306_j14998025798302_1_alg».proof.Proof.LibLayout
import proofs.«148306_j14998025798302_1_alg».proof.Proof.LibProductIx
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Arith

open Cert.KernelIdeal Cert.KernelIdeal.Gen
open Idealize.ShloMosaic Idealize.ShloMosaic.ValueIdx Cert.Ranking

/-! ## Sums along one axis, at explicit coordinates -/

theorem laneSum_4096x512 (src : FVec Ideal S4096x512 .f32) (r : Fin 4096) :
    multiReduction .add [1] S4096 src 0x00000000#32 reduces_S4096x512_S4096 (.inl rfl) rfl (ix1 r)
      = ∑ k : Fin 512, src (ix2 r k) :=
  (Ideal.multiReduction_add_single src 0x00000000#32 reduces_S4096x512_S4096 (.inl rfl) rfl (ix1 r)).trans
    (Finset.sum_congr rfl fun k _ => congrArg src (funext fun a => Fin.ext (by
      match a with | ⟨0, _⟩ => rfl | ⟨1, _⟩ => rfl)))

theorem laneSum_64x512 (src : FVec Ideal S64x512 .f32) (r : Fin 64) :
    multiReduction .add [1] S64 src 0x00000000#32 reduces_S64x512_S64 (.inl rfl) rfl (ix1 r)
      = ∑ k : Fin 512, src (ix2 r k) :=
  (Ideal.multiReduction_add_single src 0x00000000#32 reduces_S64x512_S64 (.inl rfl) rfl (ix1 r)).trans
    (Finset.sum_congr rfl fun k _ => congrArg src (funext fun a => Fin.ext (by
      match a with | ⟨0, _⟩ => rfl | ⟨1, _⟩ => rfl)))

theorem colSum_512x4096 (src : FVec Ideal S512x4096 .f32) (c : Fin 4096) :
    multiReduction .add [0] S4096 src 0x00000000#32 reduces_S512x4096_S4096 (.inl rfl) rfl (ix1 c)
      = ∑ k : Fin 512, src (ix2 k c) :=
  (Ideal.multiReduction_add_single src 0x00000000#32 reduces_S512x4096_S4096 (.inl rfl) rfl (ix1 c)).trans
    (Finset.sum_congr rfl fun k _ => congrArg src (funext fun a => Fin.ext (by
      match a with | ⟨0, _⟩ => rfl | ⟨1, _⟩ => rfl)))

theorem laneSum_64x4094 (src : FVec Ideal S64x4094 .f32) (r : Fin 64) :
    multiReduction .add [1] S64 src 0x00000000#32 reduces_S64x4094_S64 (.inl rfl) rfl (ix1 r)
      = ∑ k : Fin 4094, src (ix2 r k) :=
  (Ideal.multiReduction_add_single src 0x00000000#32 reduces_S64x4094_S64 (.inl rfl) rfl (ix1 r)).trans
    (Finset.sum_congr rfl fun k _ => congrArg src (funext fun a => Fin.ext (by
      match a with | ⟨0, _⟩ => rfl | ⟨1, _⟩ => rfl)))

theorem colSum_64x1 (src : FVec Ideal S64x1 .f32) (u : Fin 1) :
    multiReduction .add [0] S1 src 0x00000000#32 reduces_S64x1_S1 (.inl rfl) rfl (ix1 u)
      = ∑ r : Fin 64, src (ix2 r u) :=
  (Ideal.multiReduction_add_single src 0x00000000#32 reduces_S64x1_S1 (.inl rfl) rfl (ix1 u)).trans
    (Finset.sum_congr rfl fun k _ => congrArg src (funext fun a => Fin.ext (by
      match a with | ⟨0, _⟩ => rfl | ⟨1, _⟩ => rfl)))

/-! ## The matrix product into the zero accumulator -/

theorem hl0 (j : S64x4096.Idx) (q : dot_S64x512_S512x4096_S64x4096_1_0_0_1_n_n.contr.Idx) :
    (dot_S64x512_S512x4096_S64x4096_1_0_0_1_n_n.lhsIdx j q 0).val = (j 0).val := by
  unfold DotDims.lhsIdx
  rw [dif_neg (show ¬(0 : Fin S64x512.rank) ∈ dot_S64x512_S512x4096_S64x4096_1_0_0_1_n_n.lhsBatch by decide),
    dif_pos (show (0 : Fin S64x512.rank) ∈ dot_S64x512_S512x4096_S64x4096_1_0_0_1_n_n.lhsNonContracting by decide)]
  rfl

theorem hr1 (j : S64x4096.Idx) (q : dot_S64x512_S512x4096_S64x4096_1_0_0_1_n_n.contr.Idx) :
    (dot_S64x512_S512x4096_S64x4096_1_0_0_1_n_n.rhsIdx j q 1).val = (j 1).val := by
  unfold DotDims.rhsIdx
  rw [dif_neg (show ¬(1 : Fin S512x4096.rank) ∈ dot_S64x512_S512x4096_S64x4096_1_0_0_1_n_n.rhsBatch by decide),
    dif_pos (show (1 : Fin S512x4096.rank) ∈ dot_S64x512_S512x4096_S64x4096_1_0_0_1_n_n.rhsNonContracting by decide)]
  rfl

/-- The product of a [64, 512] block and a [512, 4096] matrix into the zero accumulator, at (r, c): the inner
    product of row r and column c. -/
theorem product_apply (l : FVec Ideal S64x512 .f32) (w : FVec Ideal S512x4096 .f32) (r : Fin 64) (c : Fin 4096) :
    matmul dot_S64x512_S512x4096_S64x4096_1_0_0_1_n_n (some .fp32) l w (constant S64x4096 .f32 0x00000000#32) (ix2 r c)
      = ∑ k : Fin 512, l (ix2 r k) * w (ix2 k c) :=
  (Ideal.matmul_constant_zero_apply dot_S64x512_S512x4096_S64x4096_1_0_0_1_n_n (some .fp32) l w (ix2 r c)).trans
    (Cert.LibProductIx.sum_rows_cols dot_S64x512_S512x4096_S64x4096_1_0_0_1_n_n rfl rfl rfl rfl hl0 hr1 l w r c)

/-! ## Pointwise operations read at an entry -/

theorem sqrt_apply {s : Shape} (a : FVec Ideal s .f32) (i : s.Idx) : sqrt a i = Ideal.sqrt (a i) := rfl

/-! ## The normalization body -/

theorem nrmPay0_apply (x : Vec Ideal S4096x512 .f32) (r : Fin 4096) (k : Fin 512) :
    k0_pay1 (F := Ideal) x (ix2 r k) = nrm (fun r k => x (ix2 r k)) r k := by
  unfold k0_pay1 nrm
  dsimp only
  simp only [divf_apply, maximumf_apply, sqrt_apply, broadcast_apply, broadcastTo_a1_ab_apply, shapeCast_a_a1_apply]
  rw [laneSum_4096x512]
  rfl

theorem nrmPay1_apply (x : Vec Ideal S4096x512 .f32) (r : Fin 4096) (k : Fin 512) :
    k1_pay1 (F := Ideal) x (ix2 r k) = nrm (fun r k => x (ix2 r k)) r k := by
  unfold k1_pay1 nrm
  dsimp only
  simp only [divf_apply, maximumf_apply, sqrt_apply, broadcast_apply, broadcastTo_a1_ab_apply, shapeCast_a_a1_apply]
  rw [laneSum_4096x512]
  rfl

/-! ## The distance bodies -/

/-- The low-feature distance body at (r, c): the shifted distance of the block's row r and the matrix's column c. -/
theorem distPay6_apply (x0 : Vec Ideal S64x512 .f32) (x1 : Vec Ideal S512x4096 .f32) (r : Fin 64) (c : Fin 4096) :
    k2_pay6 (F := Ideal) x0 x1 (ix2 r c) = Ranking.dist (fun k => x0 (ix2 r k)) (fun k => x1 (ix2 k c)) := by
  unfold k2_pay6 Ranking.dist
  dsimp only
  simp only [shapeCast_self, sqrt_apply, maximumf_apply, addf_apply, subf_apply, mulf_apply, broadcast_apply,
    broadcastTo_a1_ab_apply, broadcastTo_1b_ab_apply, shapeCast_a_a1_apply, shapeCast_a_1a_apply, product_apply]
  rw [laneSum_64x512, laneSum_64x512, colSum_512x4096, colSum_512x4096]
  rfl

/-- The embed-feature distance body: the same function of its two operands. -/
theorem distPay7_apply (v6 : FVec Ideal S64x512 .f32) (v10 : FVec Ideal S512x4096 .f32) (r : Fin 64) (c : Fin 4096) :
    k2_pay7 (F := Ideal) v6 v10 (ix2 r c) = Ranking.dist (fun k => v6 (ix2 r k)) (fun k => v10 (ix2 k c)) := by
  unfold k2_pay7 Ranking.dist
  dsimp only
  simp only [sqrt_apply, maximumf_apply, addf_apply, subf_apply, mulf_apply, broadcast_apply,
    broadcastTo_a1_ab_apply, broadcastTo_1b_ab_apply, shapeCast_a_a1_apply, shapeCast_a_1a_apply, product_apply]
  rw [laneSum_64x512, laneSum_64x512, colSum_512x4096, colSum_512x4096]
  rfl

/-! ## The row mask -/

/-- For block t and row r of the block, the signed comparison of 64 t + r against 4095 on 32-bit words, widened,
    is the word 1 below 4095 and the word 0 otherwise: no wrap-around at these sizes. -/
theorem maskBits : ∀ t r : Fin 64,
    ((IntOp.cmpi .slt (IntOp.addi (Scalar.muli (BitVec.ofNat 32 t.val) 64#32) (BitVec.ofNat 32 r.val)) 4095#32).setWidth 32).toInt
      = if 64 * t.val + r.val < 4095 then 1 else 0 := by decide +kernel

theorem mask_apply (t r : Fin 64) :
    FloatOps.sitofp (F := Ideal) .f32
        ((IntOp.cmpi .slt (IntOp.addi (Scalar.muli (BitVec.ofNat 32 t.val) 64#32) (BitVec.ofNat 32 r.val)) 4095#32).setWidth 32)
      = maskv (rowOf t r) := by
  show ((((IntOp.cmpi .slt (IntOp.addi (Scalar.muli (BitVec.ofNat 32 t.val) 64#32) (BitVec.ofNat 32 r.val)) 4095#32).setWidth 32).toInt : ℝ) : EReal) = _
  rw [maskBits t r]
  unfold maskv rowOf
  dsimp only
  split <;> simp

/-! ## One point's total -/

/-- One term, in the block's own coordinates, from the two 64 x 4096 distance blocks. -/
def termBlk (dl de : FVec Ideal S64x4096 .f32) (r : Fin 64) (c : Fin 4094) : EReal :=
  (Ideal.sign (dl (ix2 r (colL c)) - dl (ix2 r (colR c))) - Ideal.sign (de (ix2 r (colL c)) - de (ix2 r (colR c))))
    * (de (ix2 r (colR c)) - de (ix2 r (colL c)))

theorem sliceL (X : FVec Ideal S64x4096 .f32) (r : Fin 64) (c : Fin 4094) :
    extractStridedSlice S64x4094 ![0, 0] X slices_S64x4096_o0_0_S64x4094 (ix2 r c) = X (ix2 r (colL c)) :=
  slice2_axis1_apply 0 X slices_S64x4096_o0_0_S64x4094 r c (colL c) (by show c.val = 0 + c.val; omega)

theorem sliceR (X : FVec Ideal S64x4096 .f32) (r : Fin 64) (c : Fin 4094) :
    extractStridedSlice S64x4094 ![0, 1] X slices_S64x4096_o0_1_S64x4094 (ix2 r c) = X (ix2 r (colR c)) :=
  slice2_axis1_apply 1 X slices_S64x4096_o0_1_S64x4094 r c (colR c) (by show c.val + 1 = 1 + c.val; omega)

/-- The two column windows of the embed distance block. -/
theorem pay8_apply (v6 : FVec Ideal S64x512 .f32) (v10 : FVec Ideal S512x4096 .f32) (r : Fin 64) (c : Fin 4094) :
    k2_pay8 (F := Ideal) v6 v10 (ix2 r c) = k2_pay7 v6 v10 (ix2 r (colL c)) := sliceL (k2_pay7 v6 v10) r c
theorem pay9_apply (v6 : FVec Ideal S64x512 .f32) (v10 : FVec Ideal S512x4096 .f32) (r : Fin 64) (c : Fin 4094) :
    k2_pay9 (F := Ideal) v6 v10 (ix2 r c) = k2_pay7 v6 v10 (ix2 r (colR c)) := sliceR (k2_pay7 v6 v10) r c

/-- Their difference. -/
theorem pay11_apply (v6 : FVec Ideal S64x512 .f32) (v10 : FVec Ideal S512x4096 .f32) (r : Fin 64) (c : Fin 4094) :
    k2_pay11 (F := Ideal) v6 v10 (ix2 r c) = k2_pay7 v6 v10 (ix2 r (colL c)) - k2_pay7 v6 v10 (ix2 r (colR c)) := by
  show k2_pay8 v6 v10 (ix2 r c) - k2_pay9 v6 v10 (ix2 r c) = _
  rw [pay8_apply, pay9_apply]

/-- The sign of the low distances' difference: 1 carrying the difference's sign where it is not zero, the
    difference itself (zero) where it is, which is the sign function on every extended real. -/
theorem signPay10_apply (dl : FVec Ideal S64x4096 .f32) (r : Fin 64) (c : Fin 4094) :
    k2_pay10 (F := Ideal) dl (ix2 r c) = Ideal.sign (dl (ix2 r (colL c)) - dl (ix2 r (colR c))) := by
  refine (Ideal.jnp_sign_eq_sign_f32 (subf (extractStridedSlice S64x4094 ![0, 0] dl slices_S64x4096_o0_0_S64x4094)
    (extractStridedSlice S64x4094 ![0, 1] dl slices_S64x4096_o0_1_S64x4094) (ix2 r c))).trans ?_
  rw [subf_apply, sliceL, sliceR]

/-- The same selection for the embed distances' difference. -/
theorem signDe_apply (v6 : FVec Ideal S64x512 .f32) (v10 : FVec Ideal S512x4096 .f32) (r : Fin 64) (c : Fin 4094) :
    select (cmpf .ogt (k2_pay13 (F := Ideal) v6 v10) (broadcast S64x4094 (FloatOps.ofBits .f32 0#32))) (k2_pay12 v6 v10)
        (k2_pay11 v6 v10) (ix2 r c)
      = Ideal.sign (k2_pay11 v6 v10 (ix2 r c)) :=
  Ideal.jnp_sign_eq_sign_f32 (k2_pay11 v6 v10 (ix2 r c))

/-- The mask vector at (r, c) is the row mask of row 64 t + r. -/
theorem maskVec_apply (t r : Fin 64) (c : Fin 4094) :
    broadcastTo S64x4094 (sitofp (F := Ideal) .f32 (extui 32 (cmpi .slt (addi (broadcast S64x1 (Scalar.muli (BitVec.ofNat 32 t.val) 64#32))
        (iota .tc S64x1 32 [0] iota_S64x1_d0_w32)) (broadcast S64x1 4095#32)) natLt_1_32)) broadcasts_S64x1_S64x4094 (ix2 r c)
      = maskv (rowOf t r) := by
  rw [broadcastTo_a1_ab_apply]
  show FloatOps.sitofp (F := Ideal) .f32 ((IntOp.cmpi .slt (IntOp.addi (Scalar.muli (BitVec.ofNat 32 t.val) 64#32)
    (iota .tc S64x1 32 [0] iota_S64x1_d0_w32 (ix2 r (0 : Fin 1)))) 4095#32).setWidth 32) = _
  rw [iota_single_apply]
  exact mask_apply t r

theorem total_apply (t : Fin 64) (dl : FVec Ideal S64x4096 .f32) (v6 : FVec Ideal S64x512 .f32)
    (v10 : FVec Ideal S512x4096 .f32) (acc : Vec Ideal S1x1 .f32) :
    k2_pay1 (F := Ideal) (BitVec.ofNat 32 t.val) (k2_pay8 v6 v10) (k2_pay9 v6 v10) (k2_pay10 dl) (k2_pay11 v6 v10)
        (k2_pay12 v6 v10) (k2_pay13 v6 v10) (FloatOps.ofBits .f32 0#32) acc (ix2 (0 : Fin 1) (0 : Fin 1))
      = acc (ix2 (0 : Fin 1) (0 : Fin 1))
        + ∑ r : Fin 64, ∑ c : Fin 4094, termBlk dl (k2_pay7 v6 v10) r c * maskv (rowOf t r) := by
  unfold k2_pay1
  dsimp only
  simp only [addf_apply, shapeCast_self, shapeCast_a_a1_apply]
  rw [colSum_64x1]
  simp only [shapeCast_a_a1_apply]
  refine congrArg (acc (ix2 (0 : Fin 1) (0 : Fin 1)) + ·) (Finset.sum_congr rfl fun r _ => ?_)
  rw [laneSum_64x4094]
  refine Finset.sum_congr rfl fun c _ => ?_
  rw [mulf_apply, mulf_apply, subf_apply, subf_apply, signPay10_apply, signDe_apply, pay11_apply, pay8_apply, pay9_apply,
    maskVec_apply]
  rfl

end Cert.KernelIdeal.Arith

end
-- ==== Proof.KRun.lean ====
/-
  The idealized kernel's run with its RESULT named. The program is three kernel regions among host operations: two
  row normalizations, two transposes, the blocked loss, a reshape of the [1,1] total to a scalar. Every weakly fair
  execution terminates with each unscoped buffer at the contents the fold through the program's segments leaves
  (the last boundary's contents); read at the result buffer that is the statement below, and read at the argument
  buffers it is that they end as launched.
-/
import proofs.«148306_j14998025798302_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the three argument arrays as launched. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunValue

end
-- ==== Proof.KValue.lean ====
/-
  The idealized kernel computes the loss.

  At point t the loss region's four input blocks are rows 64 t .. 64 t + 63 of the two normalized matrices and the
  whole of their transposes, so the two 64 x 4096 distance blocks are rows 64 t .. 64 t + 63 of the two distance
  matrices, and the point's total is block t's total of masked terms. The accumulator after point n is therefore the
  running value of the block totals, the region's result the blocked arrangement of the loss, and the program's
  scalar result — the [1,1] array recast — the loss itself.
-/
import proofs.«148306_j14998025798302_1_alg».proof.Proof.KHost
import proofs.«148306_j14998025798302_1_alg».proof.Proof.KArith
import proofs.«148306_j14998025798302_1_alg».proof.Proof.KRun
import proofs.«148306_j14998025798302_1_alg».proof.Proof.Spec
import Idealize.ShloMosaic.Lib.ValueLayout

set_option maxRecDepth 16384

noncomputable section

namespace Cert.KernelIdeal.LossValue

open Cert.KernelIdeal Cert.KernelIdeal.Gen Cert.KernelIdeal.Arith Cert.KernelIdeal.HostValue
open Idealize.ShloMosaic Idealize.ShloMosaic.TcCoe Idealize.SL.Sem Idealize.ShloMosaic.ValueIdx Cert.Ranking
open Idealize.ShloMosaic.Pipeline (Dat)

/-! ## One point, over any region-entry contents whose four arrays are named -/

section Point

variable (V : (c : Dev nD) → (b : Ref sig .tc) → Buf (Elt Ideal) ((c : Thread nD τ).loc b)) (c : Dev nD)
variable (A0 A1 : Fin 4096 → Fin 512 → EReal)

theorem lt64 (t : Fin cfg2.N) : t.val < 64 := lt_of_lt_of_eq t.isLt N_2

theorem coords_val : ∀ t : Fin cfg2.N, (grid2.coords t 0).val = t.val :=
  (by decide +kernel : ∀ t : Fin grid2.N, (grid2.coords t 0).val = t.val)

/-- Point t's low distance block is rows 64 t .. 64 t + 63 of the low distance matrix. -/
theorem dl_apply (h0 : ∀ (R : Fin 4096) (k : Fin 512), V c main_v0 (ix2 R k) = A0 R k)
    (h2 : ∀ (k : Fin 512) (C : Fin 4096), V c main_v2 (ix2 k C) = A0 C k)
    (t : Fin cfg2.N) (r : Fin 64) (C : Fin 4096) :
    k2_pay6 (F := Ideal) (iblk2 V c 0 t) (iblk2 V c 1 t) (ix2 r C) = dmat A0 (rowOf ⟨t.val, lt64 t⟩ r) C := by
  refine (distPay6_apply (iblk2 V c 0 t) (iblk2 V c 1 t) r C).trans ?_
  exact congrArg₂ Ranking.dist
    (funext fun k => (iblk2_0_apply V c t r k (rowOf ⟨t.val, lt64 t⟩ r) rfl).trans (h0 _ k))
    (funext fun k => (congrFun (iblk2_1_eq V c t) (ix2 k C)).trans (h2 k C))

/-- The same for the embed distances. -/
theorem de_apply (h1 : ∀ (R : Fin 4096) (k : Fin 512), V c main_v1 (ix2 R k) = A1 R k)
    (h3 : ∀ (k : Fin 512) (C : Fin 4096), V c main_v3 (ix2 k C) = A1 C k)
    (t : Fin cfg2.N) (r : Fin 64) (C : Fin 4096) :
    k2_pay7 (F := Ideal) (iblk2 V c 2 t) (iblk2 V c 3 t) (ix2 r C) = dmat A1 (rowOf ⟨t.val, lt64 t⟩ r) C := by
  refine (distPay7_apply (iblk2 V c 2 t) (iblk2 V c 3 t) r C).trans ?_
  exact congrArg₂ Ranking.dist
    (funext fun k => (iblk2_2_apply V c t r k (rowOf ⟨t.val, lt64 t⟩ r) rfl).trans (h1 _ k))
    (funext fun k => (congrFun (iblk2_3_eq V c t) (ix2 k C)).trans (h3 k C))

/-- A point's step adds block t's total of masked terms to the accumulator. -/
theorem step_apply (h0 : ∀ (R : Fin 4096) (k : Fin 512), V c main_v0 (ix2 R k) = A0 R k)
    (h2 : ∀ (k : Fin 512) (C : Fin 4096), V c main_v2 (ix2 k C) = A0 C k)
    (h1 : ∀ (R : Fin 4096) (k : Fin 512), V c main_v1 (ix2 R k) = A1 R k)
    (h3 : ∀ (k : Fin 512) (C : Fin 4096), V c main_v3 (ix2 k C) = A1 C k)
    (t : Fin cfg2.N) (acc : Vec Ideal S1x1 .f32) :
    Acc.step (grid2.coords t) (iblk2 V c 0 t) (iblk2 V c 1 t) (iblk2 V c 2 t) (iblk2 V c 3 t) acc (ix2 (0 : Fin 1) (0 : Fin 1))
      = acc (ix2 (0 : Fin 1) (0 : Fin 1)) + blockTotal (term (dmat A0) (dmat A1)) ⟨t.val, lt64 t⟩ := by
  unfold Acc.step
  rw [coords_val t, show k2_pay4 (F := Ideal) (iblk2 V c 2 t) = iblk2 V c 2 t from shapeCast_self _ _,
    show k2_pay5 (F := Ideal) (iblk2 V c 3 t) = iblk2 V c 3 t from shapeCast_self _ _]
  refine (total_apply ⟨t.val, lt64 t⟩ (k2_pay6 (iblk2 V c 0 t) (iblk2 V c 1 t)) (iblk2 V c 2 t) (iblk2 V c 3 t) acc).trans ?_
  refine congrArg (acc (ix2 (0 : Fin 1) (0 : Fin 1)) + ·) (Finset.sum_congr rfl fun r _ => Finset.sum_congr rfl fun cc _ =>
    congrArg (· * maskv (rowOf ⟨t.val, lt64 t⟩ r)) ?_)
  unfold termBlk term
  rw [dl_apply V c A0 h0 h2 t r (colL cc), dl_apply V c A0 h0 h2 t r (colR cc), de_apply V c A1 h1 h3 t r (colL cc),
    de_apply V c A1 h1 h3 t r (colR cc)]

/-- The accumulator after point n is the running value of the block totals. -/
theorem accAfter_apply (h0 : ∀ (R : Fin 4096) (k : Fin 512), V c main_v0 (ix2 R k) = A0 R k)
    (h2 : ∀ (k : Fin 512) (C : Fin 4096), V c main_v2 (ix2 k C) = A0 C k)
    (h1 : ∀ (R : Fin 4096) (k : Fin 512), V c main_v1 (ix2 R k) = A1 R k)
    (h3 : ∀ (k : Fin 512) (C : Fin 4096), V c main_v3 (ix2 k C) = A1 C k) : ∀ (n : ℕ) (h : n < cfg2.N),
    Acc.accAfter V c n h (ix2 (0 : Fin 1) (0 : Fin 1))
      = running (blockTotal (term (dmat A0) (dmat A1))) n (lt_of_lt_of_eq h N_2)
  | 0, h => by
    show Acc.step (grid2.coords ⟨0, h⟩) (iblk2 V c 0 ⟨0, h⟩) (iblk2 V c 1 ⟨0, h⟩) (iblk2 V c 2 ⟨0, h⟩) (iblk2 V c 3 ⟨0, h⟩) (k2_pay3 (F := Ideal))
      (ix2 (0 : Fin 1) (0 : Fin 1)) = _
    rw [step_apply V c A0 A1 h0 h2 h1 h3 ⟨0, h⟩ (k2_pay3 (F := Ideal))]
    rfl
  | n + 1, h => by
    show Acc.step (grid2.coords ⟨n + 1, h⟩) (iblk2 V c 0 ⟨n + 1, h⟩) (iblk2 V c 1 ⟨n + 1, h⟩) (iblk2 V c 2 ⟨n + 1, h⟩)
      (iblk2 V c 3 ⟨n + 1, h⟩) (Acc.accAfter V c n (Nat.lt_of_succ_lt h)) (ix2 (0 : Fin 1) (0 : Fin 1)) = _
    rw [step_apply V c A0 A1 h0 h2 h1 h3 ⟨n + 1, h⟩ _, accAfter_apply h0 h2 h1 h3 n (Nat.lt_of_succ_lt h)]
    rfl

/-- The region's result block holds the loss. -/
theorem result_apply (h0 : ∀ (R : Fin 4096) (k : Fin 512), V c main_v0 (ix2 R k) = A0 R k)
    (h2 : ∀ (k : Fin 512) (C : Fin 4096), V c main_v2 (ix2 k C) = A0 C k)
    (h1 : ∀ (R : Fin 4096) (k : Fin 512), V c main_v1 (ix2 R k) = A1 R k)
    (h3 : ∀ (k : Fin 512) (C : Fin 4096), V c main_v3 (ix2 k C) = A1 C k) :
    Acc.result V c (ix2 (0 : Fin 1) (0 : Fin 1)) = loss (term (dmat A0) (dmat A1)) := by
  unfold Acc.result k2_pay2
  rw [shapeCast_self]
  show Ideal.div (Acc.accAfter V c 63 Acc.tLast.isLt (ix2 (0 : Fin 1) (0 : Fin 1))) cnt = _
  rw [accAfter_apply V c A0 A1 h0 h2 h1 h3 63 Acc.tLast.isLt]
  exact blocked_eq_loss _

end Point

/-! ## The run -/

section Run

variable (m : (ℓ : Loc nD τ sig) → Buf (Elt Ideal) ℓ) (ρ : Dev nD → PrngReg)

/-- The two arguments with their rows scaled to unit length, by row and column. -/
abbrev N0 (c : Dev nD) : Fin 4096 → Fin 512 → EReal := nrm fun r k => m ((c : Thread nD τ).loc main_arg0) (ix2 r k)
abbrev N1 (c : Dev nD) : Fin 4096 → Fin 512 → EReal := nrm fun r k => m ((c : Thread nD τ).loc main_arg1) (ix2 r k)

/-- The loss of the launch memory's two arguments. -/
abbrev lossOf (c : Dev nD) : EReal := loss (term (dmat (N0 m c)) (dmat (N1 m c)))

/-- What the loss region finds in its four input arrays: the two normalized matrices and their transposes. -/
theorem V3_v0 (c : Dev nD) (R : Fin 4096) (k : Fin 512) : V3 m ρ c main_v0 (ix2 R k) = N0 m c R k := by
  have e : V3 m ρ c main_v0 = k0_pay1 (m ((c : Thread nD τ).loc main_arg0)) := by
    show StableHlo.after hostOps2 (W2 m ρ c) (Proc.devRef .tc main_v0) = _
    after_results
    exact W2_v0 m ρ c
  rw [e]; exact nrmPay0_apply _ R k

theorem V3_v1 (c : Dev nD) (R : Fin 4096) (k : Fin 512) : V3 m ρ c main_v1 (ix2 R k) = N1 m c R k := by
  have e : V3 m ρ c main_v1 = k1_pay1 (m ((c : Thread nD τ).loc main_arg1)) := by
    show StableHlo.after hostOps2 (W2 m ρ c) (Proc.devRef .tc main_v1) = _
    after_results
    exact W2_v1 m ρ c
  rw [e]; exact nrmPay1_apply _ R k

theorem V3_v2 (c : Dev nD) (k : Fin 512) (C : Fin 4096) : V3 m ρ c main_v2 (ix2 k C) = N0 m c C k := by
  have e : V3 m ρ c main_v2 = transpose S512x4096 [1, 0] (k0_pay1 (m ((c : Thread nD τ).loc main_arg0))) transposes_S4096x512_S512x4096_1_0 := by
    show StableHlo.after hostOps2 (W2 m ρ c) (Proc.devRef .tc main_v2) = _
    after_results
    rw [W2_v0]
  rw [e, transpose_ix2_apply]; exact nrmPay0_apply _ C k

theorem V3_v3 (c : Dev nD) (k : Fin 512) (C : Fin 4096) : V3 m ρ c main_v3 (ix2 k C) = N1 m c C k := by
  have e : V3 m ρ c main_v3 = transpose S512x4096 [1, 0] (k1_pay1 (m ((c : Thread nD τ).loc main_arg1))) transposes_S4096x512_S512x4096_1_0 := by
    show StableHlo.after hostOps2 (W2 m ρ c) (Proc.devRef .tc main_v3) = _
    after_results
    rw [W2_v1]
  rw [e, transpose_ix2_apply]; exact nrmPay1_apply _ C k

/-- The program's scalar result, at the last boundary, is the loss. -/
theorem result_eq (c : Dev nD) : W5 m ρ c (Proc.devRef .tc main_v5) = fun _ => lossOf m c := by
  have e : W5 m ρ c (Proc.devRef .tc main_v5) = shapeCast S_ (Acc.result (V3 m ρ) c) shapeCasts_S1x1_S_ := by
    show StableHlo.after hostOps3 (W4 m ρ c) (Proc.devRef .tc main_v5) = _
    after_results
    rw [show W4 m ρ c (Proc.devRef .tc main_v4) = Acc.result (V3 m ρ) c from (W4_arr m ρ c 4).trans (final2 (V3 m ρ) c)]
    rfl
  rw [e]
  funext j
  rw [shapeCast_apply (Acc.result (V3 m ρ) c) shapeCasts_S1x1_S_ j (ix2 (0 : Fin 1) (0 : Fin 1)) (by
    rw [Shape.rowMajor_val_two]
    have hj := (S_.rowMajor j).isLt
    have hn : S_.numel = 1 := by decide
    show (0 : ℕ) * 1 + 0 = _
    omega)]
  exact result_apply (V3 m ρ) c (N0 m c) (N1 m c) (V3_v0 m ρ c) (V3_v2 m ρ c) (V3_v1 m ρ c) (V3_v3 m ρ c)

/-- Every weakly fair execution of the idealized kernel terminates with its result at the loss of its arguments and
    the arguments unchanged. -/
theorem run : θ_run defs (onTc (τ := τ) (main (F := Ideal))) ⟨m, fun _ => 0, ρ⟩ (fun r => ∀ c : Dev nD,
      r.2.mem ((c.tc : Thread nD τ).loc main_v5) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩)
    (Cert.KernelIdeal.RunValue.run_result m ρ)

end Run

end Cert.KernelIdeal.LossValue

end
-- ==== Proof.RefValue.lean ====
/-
  The reference program, read one operation at a time, computes the ranking loss of the specification.

  Each argument's rows are scaled to unit length; the shifted-distance matrix of the scaled rows against themselves
  is assembled from three row sums and one product of a matrix with its transpose; two overlapping column windows
  of each distance matrix are compared through the sign function; the products are summed over every row below
  4095 and every column below 4094 and divided by the count literal. Every step is a definitional reading of one
  operation at one index, or a re-indexing of a finite sum; no finiteness of any value is used.
-/
import proofs.«148306_j14998025798302_1_alg».proof.Proof.Gen.ReferenceIdeal.Read
import proofs.«148306_j14998025798302_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- An argument array: 4096 rows of 512 entries. -/
abbrev Arg : Type := (⟨S4096x512, .f32⟩ : BufTy).Contents (Elt Ideal)

/-- The argument as a function of its row and column. -/
abbrev mat (x : Arg) : Fin 4096 → Fin 512 → EReal := fun r k => x (ix2 r k)

/-! ## Rows scaled to unit length -/

theorem idx6 (r : Fin 4096) (k : Fin 512) : idx_main_v6 (ix2 r k) = ix2 r (0 : Fin 1) :=
  funext fun a => Fin.ext (by match a with | ⟨0, _⟩ => rfl | ⟨1, _⟩ => rfl)
theorem idx2 (r : Fin 4096) : idx_main_v2 (ix2 r (0 : Fin 1)) = ix1 r :=
  funext fun a => Fin.ext (by match a with | ⟨0, _⟩ => rfl)
theorem idx1 (r : Fin 4096) (k : Fin 512) : idx_main_v1 (ix1 r) k = ix2 r k :=
  funext fun a => Fin.ext (by match a with | ⟨0, _⟩ => rfl | ⟨1, _⟩ => rfl)

/-- The first argument's scaled rows. -/
theorem v7_at (x : Arg) (r : Fin 4096) (k : Fin 512) :
    val_main_v7 (F := Ideal) x (ix2 r k) = Ranking.nrm (mat x) r k := by
  rw [val_main_v7_apply, val_main_v6_apply, val_main_v5_apply, val_main_v3_apply, val_main_v2_apply,
    val_main_v1_apply, val_main_v4_apply, val_main_cst_0_apply, val_main_cst_apply, idx6, idx2]
  simp only [idx1, val_main_v0_apply]
  simp only [Ideal.hostDivf_def, Ideal.maximumf_def, Ideal.hostUnary_sqrt_def, Ideal.ofBits_def, Ideal.mulf_def,
    Ideal.ofBits_zero_f32, zero_add]
  rfl

theorem idx14 (r : Fin 4096) (k : Fin 512) : idx_main_v14 (ix2 r k) = ix2 r (0 : Fin 1) :=
  funext fun a => Fin.ext (by match a with | ⟨0, _⟩ => rfl | ⟨1, _⟩ => rfl)
theorem idx10 (r : Fin 4096) : idx_main_v10 (ix2 r (0 : Fin 1)) = ix1 r :=
  funext fun a => Fin.ext (by match a with | ⟨0, _⟩ => rfl)
theorem idx9 (r : Fin 4096) (k : Fin 512) : idx_main_v9 (ix1 r) k = ix2 r k :=
  funext fun a => Fin.ext (by match a with | ⟨0, _⟩ => rfl | ⟨1, _⟩ => rfl)

/-- The second argument's scaled rows. -/
theorem v15_at (x : Arg) (r : Fin 4096) (k : Fin 512) :
    val_main_v15 (F := Ideal) x (ix2 r k) = Ranking.nrm (mat x) r k := by
  rw [val_main_v15_apply, val_main_v14_apply, val_main_v13_apply, val_main_v11_apply, val_main_v10_apply,
    val_main_v9_apply, val_main_v12_apply, val_main_cst_2_apply, val_main_cst_1_apply, idx14, idx10]
  simp only [idx9, val_main_v8_apply]
  simp only [Ideal.hostDivf_def, Ideal.maximumf_def, Ideal.hostUnary_sqrt_def, Ideal.ofBits_def, Ideal.mulf_def,
    Ideal.ofBits_zero_f32, zero_add]
  rfl

/-! ## The distance matrices -/

/-- A float sum's initial value is the zero literal, which adds nothing. -/
theorem zadd (a : EReal) : Ideal.ofBits .f32 0x00000000#32 + a = a := by
  rw [Ideal.ofBits_zero_f32, zero_add]

theorem ia24 (r c : Fin 4096) : idx_main_v24 (ix2 r c) = ix2 r (0 : Fin 1) :=
  funext fun a => Fin.ext (by match a with | ⟨0, _⟩ => rfl | ⟨1, _⟩ => rfl)
theorem ia22 (r : Fin 4096) : idx_main_v22 (ix2 r (0 : Fin 1)) = ix1 r :=
  funext fun a => Fin.ext (by match a with | ⟨0, _⟩ => rfl)
theorem ia17 (r : Fin 4096) (k : Fin 512) : idx_main_v17 (ix1 r) k = ix2 r k :=
  funext fun a => Fin.ext (by match a with | ⟨0, _⟩ => rfl | ⟨1, _⟩ => rfl)
theorem ia25 (r c : Fin 4096) : idx_main_v25 (ix2 r c) = ix2 (0 : Fin 1) c :=
  funext fun a => Fin.ext (by match a with | ⟨0, _⟩ => rfl | ⟨1, _⟩ => rfl)
theorem ia23 (c : Fin 4096) : idx_main_v23 (ix2 (0 : Fin 1) c) = ix1 c :=
  funext fun a => Fin.ext (by match a with | ⟨0, _⟩ => rfl)
theorem ia19 (r : Fin 4096) (k : Fin 512) : idx_main_v19 (ix1 r) k = ix2 r k :=
  funext fun a => Fin.ext (by match a with | ⟨0, _⟩ => rfl | ⟨1, _⟩ => rfl)
theorem ial21 (r c : Fin 4096) (k : Fin 512) : lidx_main_v21 (ix2 r c) k = ix2 r k :=
  funext fun a => Fin.ext (by match a with | ⟨0, _⟩ => rfl | ⟨1, _⟩ => rfl)
theorem iar21 (r c : Fin 4096) (k : Fin 512) : ridx_main_v21 (ix2 r c) k = ix2 k c :=
  funext fun a => Fin.ext (by match a with | ⟨0, _⟩ => rfl | ⟨1, _⟩ => rfl)
theorem ia20 (c : Fin 4096) (k : Fin 512) : idx_main_v20 (ix2 k c) = ix2 c k :=
  funext fun a => Fin.ext (by match a with | ⟨0, _⟩ => rfl | ⟨1, _⟩ => rfl)
theorem ia34 (r c : Fin 4096) : idx_main_v34 (ix2 r c) = ix2 r (0 : Fin 1) :=
  funext fun a => Fin.ext (by match a with | ⟨0, _⟩ => rfl | ⟨1, _⟩ => rfl)
theorem ia31 (r : Fin 4096) : idx_main_v31 (ix2 r (0 : Fin 1)) = ix1 r :=
  funext fun a => Fin.ext (by match a with | ⟨0, _⟩ => rfl)
theorem ia30 (r : Fin 4096) (k : Fin 512) : idx_main_v30 (ix1 r) k = ix2 r k :=
  funext fun a => Fin.ext (by match a with | ⟨0, _⟩ => rfl | ⟨1, _⟩ => rfl)
theorem ia35 (r c : Fin 4096) : idx_main_v35 (ix2 r c) = ix2 (0 : Fin 1) c :=
  funext fun a => Fin.ext (by match a with | ⟨0, _⟩ => rfl | ⟨1, _⟩ => rfl)
theorem ia33 (c : Fin 4096) : idx_main_v33 (ix2 (0 : Fin 1) c) = ix1 c :=
  funext fun a => Fin.ext (by match a with | ⟨0, _⟩ => rfl)
theorem ia32 (r : Fin 4096) (k : Fin 512) : idx_main_v32 (ix1 r) k = ix2 r k :=
  funext fun a => Fin.ext (by match a with | ⟨0, _⟩ => rfl | ⟨1, _⟩ => rfl)

/-- The distance matrix of the first argument's scaled rows. -/
theorem v44_at (x : Arg) (r c : Fin 4096) :
    val_main_v44 (F := Ideal) x (ix2 r c) = Ranking.dmat (Ranking.nrm (mat x)) r c := by
  rw [val_main_v44_apply, val_main_v43_apply, val_main_v41_apply, val_main_v39_apply,
    val_main_v29_apply, val_main_v26_apply, val_main_v24_apply, val_main_v22_apply, val_main_v17_apply,
    val_main_v25_apply, val_main_v23_apply, val_main_v19_apply, val_main_v28_apply, val_main_v27_apply,
    val_main_v21_apply, val_main_v38_apply, val_main_v37_apply, val_main_v36_apply, val_main_v34_apply,
    val_main_v31_apply, val_main_v30_apply, val_main_v35_apply, val_main_v33_apply, val_main_v32_apply,
    val_main_v40_apply, val_main_v42_apply, val_main_cst_3_apply, val_main_cst_4_apply, val_main_cst_5_apply,
    val_main_cst_6_apply, val_main_cst_7_apply, val_main_cst_8_apply, val_main_cst_9_apply, val_main_cst_10_apply,
    ia24, ia22, ia25, ia23, ia34, ia31, ia35, ia33]
  simp only [ia17, ia19, ial21, iar21, ia30, ia32, val_main_v16_apply, val_main_v18_apply,
    val_main_v20_apply, ia20, v7_at]
  simp only [Ideal.hostUnary_sqrt_def, Ideal.maximumf_def, Ideal.addf_def, Ideal.subf_def, Ideal.mulf_def, Ideal.ofBits_def,
    zadd]
  rfl

theorem ib53 (r c : Fin 4096) : idx_main_v53 (ix2 r c) = ix2 r (0 : Fin 1) :=
  funext fun a => Fin.ext (by match a with | ⟨0, _⟩ => rfl | ⟨1, _⟩ => rfl)
theorem ib51 (r : Fin 4096) : idx_main_v51 (ix2 r (0 : Fin 1)) = ix1 r :=
  funext fun a => Fin.ext (by match a with | ⟨0, _⟩ => rfl)
theorem ib46 (r : Fin 4096) (k : Fin 512) : idx_main_v46 (ix1 r) k = ix2 r k :=
  funext fun a => Fin.ext (by match a with | ⟨0, _⟩ => rfl | ⟨1, _⟩ => rfl)
theorem ib54 (r c : Fin 4096) : idx_main_v54 (ix2 r c) = ix2 (0 : Fin 1) c :=
  funext fun a => Fin.ext (by match a with | ⟨0, _⟩ => rfl | ⟨1, _⟩ => rfl)
theorem ib52 (c : Fin 4096) : idx_main_v52 (ix2 (0 : Fin 1) c) = ix1 c :=
  funext fun a => Fin.ext (by match a with | ⟨0, _⟩ => rfl)
theorem ib48 (r : Fin 4096) (k : Fin 512) : idx_main_v48 (ix1 r) k = ix2 r k :=
  funext fun a => Fin.ext (by match a with | ⟨0, _⟩ => rfl | ⟨1, _⟩ => rfl)
theorem ibl50 (r c : Fin 4096) (k : Fin 512) : lidx_main_v50 (ix2 r c) k = ix2 r k :=
  funext fun a => Fin.ext (by match a with | ⟨0, _⟩ => rfl | ⟨1, _⟩ => rfl)
theorem ibr50 (r c : Fin 4096) (k : Fin 512) : ridx_main_v50 (ix2 r c) k = ix2 k c :=
  funext fun a => Fin.ext (by match a with | ⟨0, _⟩ => rfl | ⟨1, _⟩ => rfl)
theorem ib49 (c : Fin 4096) (k : Fin 512) : idx_main_v49 (ix2 k c) = ix2 c k :=
  funext fun a => Fin.ext (by match a with | ⟨0, _⟩ => rfl | ⟨1, _⟩ => rfl)
theorem ib63 (r c : Fin 4096) : idx_main_v63 (ix2 r c) = ix2 r (0 : Fin 1) :=
  funext fun a => Fin.ext (by match a with | ⟨0, _⟩ => rfl | ⟨1, _⟩ => rfl)
theorem ib60 (r : Fin 4096) : idx_main_v60 (ix2 r (0 : Fin 1)) = ix1 r :=
  funext fun a => Fin.ext (by match a with | ⟨0, _⟩ => rfl)
theorem ib59 (r : Fin 4096) (k : Fin 512) : idx_main_v59 (ix1 r) k = ix2 r k :=
  funext fun a => Fin.ext (by match a with | ⟨0, _⟩ => rfl | ⟨1, _⟩ => rfl)
theorem ib64 (r c : Fin 4096) : idx_main_v64 (ix2 r c) = ix2 (0 : Fin 1) c :=
  funext fun a => Fin.ext (by match a with | ⟨0, _⟩ => rfl | ⟨1, _⟩ => rfl)
theorem ib62 (c : Fin 4096) : idx_main_v62 (ix2 (0 : Fin 1) c) = ix1 c :=
  funext fun a => Fin.ext (by match a with | ⟨0, _⟩ => rfl)
theorem ib61 (r : Fin 4096) (k : Fin 512) : idx_main_v61 (ix1 r) k = ix2 r k :=
  funext fun a => Fin.ext (by match a with | ⟨0, _⟩ => rfl | ⟨1, _⟩ => rfl)

/-- The distance matrix of the second argument's scaled rows. -/
theorem v73_at (x : Arg) (r c : Fin 4096) :
    val_main_v73 (F := Ideal) x (ix2 r c) = Ranking.dmat (Ranking.nrm (mat x)) r c := by
  rw [val_main_v73_apply, val_main_v72_apply, val_main_v70_apply, val_main_v68_apply,
    val_main_v58_apply, val_main_v55_apply, val_main_v53_apply, val_main_v51_apply, val_main_v46_apply,
    val_main_v54_apply, val_main_v52_apply, val_main_v48_apply, val_main_v57_apply, val_main_v56_apply,
    val_main_v50_apply, val_main_v67_apply, val_main_v66_apply, val_main_v65_apply, val_main_v63_apply,
    val_main_v60_apply, val_main_v59_apply, val_main_v64_apply, val_main_v62_apply, val_main_v61_apply,
    val_main_v69_apply, val_main_v71_apply, val_main_cst_11_apply, val_main_cst_12_apply, val_main_cst_13_apply,
    val_main_cst_14_apply, val_main_cst_15_apply, val_main_cst_16_apply, val_main_cst_17_apply, val_main_cst_18_apply,
    ib53, ib51, ib54, ib52, ib63, ib60, ib64, ib62]
  simp only [ib46, ib48, ibl50, ibr50, ib59, ib61, val_main_v45_apply, val_main_v47_apply,
    val_main_v49_apply, ib49, v15_at]
  simp only [Ideal.hostUnary_sqrt_def, Ideal.maximumf_def, Ideal.addf_def, Ideal.subf_def, Ideal.mulf_def, Ideal.ofBits_def,
    zadd]
  rfl

/-! ## The column windows, one term, and the total -/

theorem i74 (r : Fin 4095) (c : Fin 4094) : idx_main_v74 (ix2 r c) = ix2 r.castSucc (Ranking.colL c) :=
  funext fun a => Fin.ext (by match a with | ⟨0, _⟩ => rfl | ⟨1, _⟩ => rfl)
theorem i75 (r : Fin 4095) (c : Fin 4094) : idx_main_v75 (ix2 r c) = ix2 r.castSucc (Ranking.colR c) :=
  funext fun a => Fin.ext (by match a with | ⟨0, _⟩ => rfl | ⟨1, _⟩ => exact Nat.add_comm 1 c.val)
theorem i76 (r : Fin 4095) (c : Fin 4094) : idx_main_v76 (ix2 r c) = ix2 r.castSucc (Ranking.colL c) :=
  funext fun a => Fin.ext (by match a with | ⟨0, _⟩ => rfl | ⟨1, _⟩ => rfl)
theorem i77 (r : Fin 4095) (c : Fin 4094) : idx_main_v77 (ix2 r c) = ix2 r.castSucc (Ranking.colR c) :=
  funext fun a => Fin.ext (by match a with | ⟨0, _⟩ => rfl | ⟨1, _⟩ => exact Nat.add_comm 1 c.val)

/-- One term of the loss: row r below 4095, column c below 4094 and its right neighbour. -/
theorem v84_at (x0 x1 : Arg) (r : Fin 4095) (c : Fin 4094) :
    val_main_v84 (F := Ideal) x0 x1 (ix2 r c)
      = Ranking.term (Ranking.dmat (Ranking.nrm (mat x0))) (Ranking.dmat (Ranking.nrm (mat x1))) r.castSucc c := by
  rw [val_main_v84_apply, val_main_v82_apply, val_main_v83_apply, val_main_v79_apply, val_main_v81_apply,
    val_main_v78_apply, val_main_v80_apply, val_main_v74_apply, val_main_v75_apply, val_main_v76_apply,
    val_main_v77_apply, i74, i75, i76, i77, v44_at, v44_at, v73_at, v73_at]
  simp only [Ideal.mulf_def, Ideal.subf_def, Ideal.hostUnary_sign_def]
  rfl

/-- The reference program's result is the loss of the two distance matrices' terms. -/
theorem ref_is_loss (x0 x1 : Cert.ReferenceIdeal.S4096x512.Idx → EReal) :
    Cert.ReferenceIdeal.Read.val_main_v86 (F := Ideal) x0 x1
      = fun _ => Cert.Ranking.loss (Cert.Ranking.term
          (Cert.Ranking.dmat (Cert.Ranking.nrm fun r k => x0 (ix2 r k)))
          (Cert.Ranking.dmat (Cert.Ranking.nrm fun r k => x1 (ix2 r k)))) := by
  funext i
  rw [val_main_v86_apply, val_main_v85_apply, val_main_cst_19_apply, val_main_cst_20_apply,
    ValueIdx.sum_idx2 (val_main_v84 (F := Ideal) x0 x1)]
  simp only [v84_at, Ideal.hostDivf_def, Ideal.ofBits_def, zadd]
  rfl

end Cert.ReferenceIdeal.RefValue

end
-- ==== Proof.lean ====
/-
  The certificate of a ranking loss computed two ways.

  Both programs scale the rows of two [4096, 512] feature matrices to unit length, form for each the 4096 x 4096
  matrix of shifted distances between its rows, compare neighbouring columns of the two matrices through the sign
  function, and average the products over rows below 4095 and columns below 4094.

  The reference does this with whole-array host operations. The kernel does it in three regions: a row normalization
  of each matrix, then — after the host has transposed the two results — a loss region that walks the rows in 64
  blocks of 64, masks the last row, accumulates the block totals in a resident [1,1] block and divides by the count
  after the last block; the host recasts that block as a scalar.

  On the extended reals both are ONE function of the arguments: each operation reads the same (sums in another
  order, a matrix product into a zero accumulator against the host's product, the kernel's sign selection against the
  host's sign function, which agree at every extended real), and the blocked, masked accumulation is the single sum
  because addition is commutative and associative and t * 1 = t, t * 0 = 0 for every extended real t. No finiteness
  of the inputs is used.

  frame_Kernel, frame_KernelIdeal: the generated frames. frame_ReferenceIdeal: the reference's generated run with its
  result dropped. preserves: the sign-bit rule's statement at the two sites. algebraic: the kernel's run with its result
  named (KRun, KHost, KAcc, KArith, KValue) and the reference's run read one operation at a time (RefValue) meet at
  the specification's loss (Spec).
-/
import proofs.«148306_j14998025798302_1_alg».proof.Defs
import proofs.«148306_j14998025798302_1_alg».proof.Proof.Gen.Kernel
import proofs.«148306_j14998025798302_1_alg».proof.Proof.Gen.Kernel.Skeleton
import proofs.«148306_j14998025798302_1_alg».proof.Proof.Gen.Kernel.Launch
import proofs.«148306_j14998025798302_1_alg».proof.Proof.Gen.Kernel.Points
import proofs.«148306_j14998025798302_1_alg».proof.Proof.Gen.Kernel.Frame
import proofs.«148306_j14998025798302_1_alg».proof.Proof.Gen.KernelIdeal
import proofs.«148306_j14998025798302_1_alg».proof.Proof.Gen.KernelIdeal.Skeleton
import proofs.«148306_j14998025798302_1_alg».proof.Proof.Gen.KernelIdeal.Launch
import proofs.«148306_j14998025798302_1_alg».proof.Proof.Gen.KernelIdeal.Points
import proofs.«148306_j14998025798302_1_alg».proof.Proof.Gen.KernelIdeal.Frame
import proofs.«148306_j14998025798302_1_alg».proof.Proof.Gen.ReferenceIdeal
import proofs.«148306_j14998025798302_1_alg».proof.Proof.Gen.Pre_finite_inputs
import proofs.«148306_j14998025798302_1_alg».proof.Proof.Gen.ReferenceIdeal.Run
import proofs.«148306_j14998025798302_1_alg».proof.Proof.Gen.ReferenceIdeal.Read
import proofs.«148306_j14998025798302_1_alg».proof.Proof.KValue
import proofs.«148306_j14998025798302_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two sites where the kernel reads a difference's sign bit through its word: each is the rule's statement. -/
theorem preserves : Cert.preserves_Kernel_KernelIdeal :=
  ⟨IdealRules.sign_bit.statement Cert.KernelIdeal.S64x4094 .f32, IdealRules.sign_bit.statement Cert.KernelIdeal.S64x4094 .f32⟩

/-- From memories agreeing on the arguments, the kernel's result is the loss of its arguments and the reference's the
    loss of its own, which are the same arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.KernelIdeal.LossValue.lossOf m c, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2.1, Cert.ReferenceIdeal.RefValue.ref_is_loss]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
